-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S512x1 : Shape := ⟨2, ![512, 1]⟩
abbrev S512x128 : Shape := ⟨2, ![512, 128]⟩
abbrev S1x2048 : Shape := ⟨2, ![1, 2048]⟩
abbrev S512x2048 : Shape := ⟨2, ![512, 2048]⟩
abbrev S512x16x128 : Shape := ⟨3, ![512, 16, 128]⟩
abbrev S512 : Shape := ⟨1, ![512]⟩

abbrev nBuf : Space → Nat
  | .hbm => 40
  | .vmem => 5
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S1x16384, .f32⟩
  | .hbm, ⟨14, _⟩ => ⟨S16384x1, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x16384, .f32⟩
  | .local _ .vmem, ⟨3, _⟩ => ⟨S512x1, .f32⟩
  | .local _ .vmem, ⟨4, _⟩ => ⟨S512x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c2048_i32 : BitVec 32 := 2048#32
  let v6 : BitVec 32 := Scalar.muli arg4 c2048_i32
  v6
def k0_off1 (k0_t1 : Fin k0_t1_loop.trips) : Fin 2 → Nat :=
  let c0_3 : Index := 0#32
  let c0_i32 : BitVec 32 := 0#32
  let c1_i32 : BitVec 32 := 1#32
  let arg4 : BitVec 32 := Scf.iv c0_i32 c1_i32 k0_t1
  let c2048_i32 : BitVec 32 := 2048#32
  let v6 : BitVec 32 := Scalar.muli arg4 c2048_i32
  let v7 : BitVec 32 := v6
  let v8 : Index := Scalar.indexCast v7
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  h_S1x2048 : 0 < S1x2048.numel
  shapeCasts_S1x2048_S1x2048 : S1x2048.ShapeCasts S1x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  broadcasts_S1x2048_S512x2048 : S1x2048.Broadcasts S512x2048
  natLt_1_32 : 1 < 32
  shapeCasts_S512x2048_S512x16x128 : S512x2048.ShapeCasts S512x16x128
  reduces_S512x16x128_S512x128 : S512x16x128.Reduces [1] S512x128
  reduces_S512x128_S512 : S512x128.Reduces [1] S512
  shapeCasts_S512_S512x1 : S512.ShapeCasts S512x1
  shapeCasts_S16384x1_S16384 : S16384x1.ShapeCasts S16384
  reducesTo_S16384_S_d0 : S16384.ReducesTo [0] S_
  h_S_ : 0 < S_.numel
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x2048.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)

variable [Facts₀]

abbrev win0_0 : Pipeline.Window sig grid0 :=
  Pipeline.Window.ofSpec (Memref.whole main_v8) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S1x16384, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .i1⟩
  | .hbm, ⟨21, _⟩ => ⟨S16384x16384, .i32⟩
  | .hbm, ⟨22, _⟩ => ⟨S_, .i32⟩
  | .hbm, ⟨23, _⟩ => ⟨S16384, .i32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  natLt_1_32 : 1 < 32
  reducesTo_S16384x16384_S16384_d1 : S16384x16384.ReducesTo [1] S16384
  h_S_ : 0 < S_.numel
  reducesTo_S16384_S_d0 : S16384.ReducesTo [0] S_

variable [Facts₀]

class Facts : Prop extends Facts₀ where

variable [Facts]
-- ==== Proof.Spec.lean ====
/-
  What both programs compute, stated once over the extended reals, and the three facts of pure arithmetic that join
  their two arrangements.

  From the logits `x` and targets `t` (16384 numbers each) form `g i = |1 / (1 + exp (-x i)) - t i|`. Sample `i`'s
  count is the number of samples `j` with `|g i - g j| ≤ 0.1` — a sum of 0/1 indicators over all 16384 `j`. The result
  is the mean over `i` of `16384 / (count i / 0.1 + ε) · loss i`, where `loss` is the stable binary cross-entropy of
  `x` against `t`; everything after the count is one fixed chain of pointwise operations, a sum and a quotient
  (`tail`), which is never opened.

  The facts: a real sum commutes with the embedding into the extended reals; the number of ones among one-bit words,
  read as a signed 32-bit word and then as a real, is the sum of the words' values (no wrap: at most 16384 ones); and a
  sum over 16384 columns is the sum over 128 lanes, 8 chunks of 2048 and 16 groups of 128 within a chunk of the column
  `2048·k + (128·s + l)` — only commutativity and associativity of addition, so nothing here asks the inputs to be
  finite.
-/
import Idealize.ShloMosaic.PureOps.Ideal
import Idealize.ShloMosaic.PureOps.Ideal.Laws
import Idealize.ShloMosaic.Lib.ValueIdx
import Idealize.ShloMosaic.Lib.IndicatorCount
import Idealize.ShloMosaic.Lib.KernelVsHost
import Idealize.ShloMosaic.Lib.WordArith

noncomputable section

open scoped BigOperators

namespace Cert.Density

open Idealize.ShloMosaic Idealize.ShloMosaic.ValueIdx

/-- The shape of a vector of 16384 numbers, and of a single number. -/
abbrev Sv : Shape := ⟨1, ![16384]⟩
abbrev Ss : Shape := ⟨0, ![]⟩

section AnyFloats

variable {F : FTy → Type} [FloatOps F]

/-- `g = |1 / (1 + exp (-x)) - t|`, entry by entry. -/
def gvec (hb : Ss.BroadcastsInDim Sv (![] : Fin 0 → Fin Sv.rank))
    (x t : (⟨Sv, .f32⟩ : BufTy).Contents (Elt F)) : (⟨Sv, .f32⟩ : BufTy).Contents (Elt F) :=
  Host.absf (subf (Host.divf (broadcastInDim Sv ![] hb (constant Ss .f32 0x3F800000#32))
    (addf (broadcastInDim Sv ![] hb (constant Ss .f32 0x3F800000#32)) (Host.exp (Host.negf x)))) t)

/-- Everything after the counts: `mean_i (16384 / (cnt i / 0.1 + ε) · loss i)` with
    `loss = max x 0 - x·t + log1p (exp (-|x|))`. -/
def tail (hb : Ss.BroadcastsInDim Sv (![] : Fin 0 → Fin Sv.rank)) (hr : Sv.ReducesTo [0] Ss) (h0 : 0 < Ss.numel)
    (cnt x t : (⟨Sv, .f32⟩ : BufTy).Contents (Elt F)) : (⟨Ss, .f32⟩ : BufTy).Contents (Elt F) :=
  Host.divf (Host.reduceAdd (mulf (Host.divf (broadcastInDim Sv ![] hb (constant Ss .f32 0x46800000#32))
      (addf (Host.divf cnt (broadcastInDim Sv ![] hb (constant Ss .f32 0x3DCCCCCD#32)))
        (broadcastInDim Sv ![] hb (constant Ss .f32 0x2B8CBCCC#32))))
    (addf (subf (maximumf x (broadcastInDim Sv ![] hb (constant Ss .f32 0x00000000#32))) (mulf x t))
      (Host.log1p (Host.exp (Host.negf (Host.absf x))))))
    (constant Ss .f32 0x00000000#32) hr h0) (constant Ss .f32 0x46800000#32)

end AnyFloats

/-- The one-bit answer to "`|a - b| ≤ 0.1`" (the float word of 0.1 kept as it is: both programs carry the same word). -/
def near (a b : Ideal .f32) : BitVec 1 :=
  FloatOps.cmpf (F := Ideal) (φ := .f32) .ole (FloatOps.absf (F := Ideal) (φ := .f32) (FloatOps.subf (F := Ideal) (φ := .f32) a b))
    (FloatOps.ofBits (F := Ideal) .f32 0x3DCCCCCD#32)

/-- That answer as the number 0 or 1. -/
def nearR (a b : Ideal .f32) : EReal := (((near a b).toNat : ℝ) : EReal)

/-- Sample `i`'s count: how many `j` have `g j` within 0.1 of `g i`. -/
def count (g : (⟨Sv, .f32⟩ : BufTy).Contents (Elt Ideal)) : (⟨Sv, .f32⟩ : BufTy).Contents (Elt Ideal) :=
  fun i => ∑ j : Fin 16384, nearR (g i) (g (ix1 j))

/-! ## Arithmetic -/

/-- A finite sum of reals, embedded, is the sum of the embedded terms. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A one-bit word's value is 1 exactly when the word is `1`. -/
theorem toNat_bit (b : BitVec 1) : b.toNat = if b = 1#1 then 1 else 0 := by
  rcases BitVec.eq_zero_or_eq_one b with h | h <;> subst h <;> decide

/-- The number of ones among fewer than 2³¹ one-bit words, as a signed 32-bit word read back as a real, is the sum of
    the words' values. -/
theorem card_ones_eq_sum {n : ℕ} (hn : n < 2 ^ 31) (p : Fin n → BitVec 1) :
    ((((BitVec.ofNat 32 (Finset.univ.filter fun k => p k = 1#1).card).toInt : ℤ) : ℝ) : EReal)
      = ∑ k : Fin n, (((p k).toNat : ℝ) : EReal) := by
  have hle : (Finset.univ.filter fun k => p k = 1#1).card ≤ n := by
    simpa using Finset.card_filter_le (Finset.univ : Finset (Fin n)) (fun k => p k = 1#1)
  rw [WordArith.toInt_ofNat_small _ (by omega), ← coe_sum, Finset.card_filter]
  congr 1
  push_cast
  refine Finset.sum_congr rfl fun k _ => ?_
  rw [toNat_bit]
  split <;> simp

/-- A sum over `m·n` indices is a double sum, the index `n·i + j`. -/
theorem sum_fin_mul {M : Type} [AddCommMonoid M] (m n : ℕ) (f : ℕ → M) :
    ∑ x : Fin (m * n), f x.val = ∑ i : Fin m, ∑ j : Fin n, f (n * i.val + j.val) := by
  rw [← finProdFinEquiv.sum_comp, Fintype.sum_prod_type]
  refine Finset.sum_congr rfl fun i _ => Finset.sum_congr rfl fun j _ => congrArg f ?_
  rw [finProdFinEquiv_apply_val]
  dsimp only
  omega

/-- The 16384 columns, taken lane by lane, chunk by chunk and group by group, are all the columns. -/
theorem sum_columns {M : Type} [AddCommMonoid M] (h : ℕ → M) :
    ∑ l : Fin 128, ∑ k ∈ Finset.range 8, ∑ s : Fin 16, h (2048 * k + (128 * s.val + l.val)) = ∑ j : Fin 16384, h j.val := by
  have e1 : ∑ j : Fin 16384, h j.val = ∑ k : Fin 8, ∑ q : Fin 2048, h (2048 * k.val + q.val) := sum_fin_mul 8 2048 h
  have e2 : ∀ k : Fin 8, ∑ q : Fin 2048, h (2048 * k.val + q.val)
      = ∑ s : Fin 16, ∑ l : Fin 128, h (2048 * k.val + (128 * s.val + l.val)) := fun k =>
    sum_fin_mul 16 128 fun q => h (2048 * k.val + q)
  rw [e1, Finset.sum_comm]
  simp only [Finset.sum_range]
  refine Finset.sum_congr rfl fun k _ => ?_
  rw [e2 k, Finset.sum_comm]

end Cert.Density

end
-- ==== Proof.RefValue.lean ====
/-
  The reference, read as the specification: its result is `tail (count g) x t` with `g = gvec x t`.

  The reference forms the 16384 × 16384 table of answers `|g i - g j| ≤ 0.1`, widens each one-bit answer to a 32-bit
  word, adds the words of row `i` from zero, and converts the signed sum to a float. A sum of widened bits from zero is
  the number of ones as a word; there are at most 16384 of them, so the signed reading is that number; and the number
  of ones is the sum of the bits' values — the specification's `count`. The table's entry `(i, j)` reads `g` at `i`
  (spread along the row) and at `j` (spread down the column). Everything after the counts is the specification's
  `tail`, operation for operation.
-/
import proofs.«162489_j6545530159211_2_alg».proof.Proof.Gen.ReferenceIdeal.Read
import proofs.«162489_j6545530159211_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Density

/-- The 16384 × 16384 table drops its second axis onto the vector of 16384. -/
theorem hred : S16384x16384.Reduces [1] S16384 := by decide

/-- Stage 7 of the reference is `g`. -/
theorem v7_eq (x0 x1 : (⟨S16384, .f32⟩ : BufTy).Contents (Elt Ideal)) :
    val_main_v7 (F := Ideal) x0 x1 = gvec (F := Ideal) bcast_S_S16384 x0 x1 := rfl

/-- The table's answer at row `i`, column `k`, is the answer for `g i` against `g k`. -/
theorem v15_apply (x0 x1 : (⟨S16384, .f32⟩ : BufTy).Contents (Elt Ideal)) (i : S16384.Idx) (k : Fin 16384) :
    val_main_v15 (F := Ideal) x0 x1 (hred.lift i k)
      = near (gvec (F := Ideal) bcast_S_S16384 x0 x1 i) (gvec (F := Ideal) bcast_S_S16384 x0 x1 (ix1 k)) := by
  have e8 : idx_main_v8 (idx_main_v10 (hred.lift i k)) = i := by
    funext a; apply Fin.ext; match a with | ⟨0, _⟩ => rfl
  have e9 : idx_main_v9 (idx_main_v11 (hred.lift i k)) = ix1 k := by
    funext a; apply Fin.ext; match a with | ⟨0, _⟩ => rfl
  rw [val_main_v15_apply, val_main_v13_apply, val_main_v12_apply, val_main_v10_apply, val_main_v8_apply,
    val_main_v11_apply, val_main_v9_apply, val_main_v14_apply, val_main_cst_1_apply, e8, e9, v7_eq]
  rfl

/-- The reference's counts are the specification's. -/
theorem v18_eq (x0 x1 : (⟨S16384, .f32⟩ : BufTy).Contents (Elt Ideal)) :
    val_main_v18 (F := Ideal) x0 x1 = count (gvec (F := Ideal) bcast_S_S16384 x0 x1) := by
  funext i
  rw [val_main_v18_apply]
  unfold val_main_v17
  rw [Host.reduce_eq_fold_single IntOp.addi _ _ reducesTo_S16384x16384_S16384_d1 hred h_S_ i]
  have hf : (val_main_v16 (F := Ideal) x0 x1 ∘ hred.lift i)
      = fun k : Fin 16384 => (near (gvec (F := Ideal) bcast_S_S16384 x0 x1 i) (gvec (F := Ideal) bcast_S_S16384 x0 x1 (ix1 k))).setWidth 32 := by
    funext k
    show (val_main_v15 (F := Ideal) x0 x1 (hred.lift i k)).setWidth 32 = _
    exact congrArg (BitVec.setWidth 32) (v15_apply x0 x1 i k)
  rw [hf]
  show FloatOps.sitofp (F := Ideal) .f32 ((Finset.univ : Finset (Fin 16384)).fold IntOp.addi (0#32) _) = _
  rw [IndicatorCount.fold_addi_setWidth_eq_card]
  exact card_ones_eq_sum (by norm_num) _

/-- The reference's result is the specification's. -/
theorem v36_eq (x0 x1 : (⟨S16384, .f32⟩ : BufTy).Contents (Elt Ideal)) :
    val_main_v36 (F := Ideal) x0 x1
      = tail (F := Ideal) bcast_S_S16384 reducesTo_S16384_S_d0 h_S_ (count (gvec (F := Ideal) bcast_S_S16384 x0 x1)) x0 x1 := by
  rw [← v18_eq]
  rfl

end Cert.ReferenceIdeal.RefValue

end
-- ==== Proof.Trips.lean ====
/-
  What one grid step leaves in its output block, as plain arithmetic of the two blocks it reads.

  The body keeps a 512 × 128 accumulator, starts it at zero, and in each of its eight trips adds to it a function
  (`k0_pay2`) of the trip's chunk — columns `2048·k … 2048·k + 2047` of the 1 × 16384 row operand — and of the 512 × 1
  column operand; after the last trip it sums the accumulator's lanes (`k0_pay3`) and stores the 512 × 1 result as its
  whole output block. The run of the body records the accumulator before trip `k` by a recursion on the trips' yields;
  here each yield is identified once (`trip_eq`: the two loads read the operands where their rectangles say), so the
  accumulator after `n` trips is the `n`-fold recursion `accAfter` and the output block is `k0_pay3` of it.
-/
import proofs.«162489_j6545530159211_2_alg».proof.Proof.Gen.KernelIdeal.Frame
import Idealize.ShloMosaic.Lib.Pipeline.Value
import Idealize.ShloMosaic.Lib.WholeRead
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- Trip `k`'s chunk of the row operand: its columns from `k`'s offset on. -/
def chunk (x1 : Vec F S1x16384 .f32) (k : Fin k0_t1_loop.trips) : Vec F S1x2048 .f32 :=
  fun y => x1 ((Rect.unit (s := S1x16384) (k0_off1 k) S1x2048.size (k0_off1_inb k)).toLoadRect.idx y)

/-- One trip's yield: `k0_pay2` of the carried accumulator, the trip's chunk and the column operand. -/
theorem trip_eq (c : Dev nD) (i : grid0.Coords) (a1 : Memref sig .tc .vmem S512x1 .f32) (h1 : a1.IsWhole)
    (a2 : Memref sig .tc .vmem S1x16384 .f32) (h2 : a2.IsWhole) (a3 : Memref sig .tc .vmem S512x1 .f32) (h3 : a3.IsWhole)
    (x0 : Vec F S512x1 .f32) (x1 : Vec F S1x16384 .f32) (k : Fin k0_t1_loop.trips) (acc : FVec F S512x128 .f32) :
    tripR_k0_t1 (F := F) Variants.none c none i a1 h1 a2 h2 a3 h3 (h1.unread x0) (h2.unread x1) k acc
      = k0_pay2 acc (chunk x1 k) x0 := by
  unfold tripR_k0_t1 trip_k0_t1
  dsimp only
  have e2 : View.readAt (Elt F) a2.view (Rect.unit (s := S1x16384) (k0_off1 k) S1x2048.size (k0_off1_inb k)).toLoadRect (h2.unread x1)
      = chunk x1 k := funext fun y => h2.readAt_unread x1 _ y
  have e1 : View.readAt (Elt F) a1.view (Rect.unit (s := S512x1) ![0, 0] S512x1.size inb_S512x1_S512x1_0_0).toLoadRect (h1.unread x0)
      = x0 := by
    rw [View.readAt_eq_ld, h1.read_unread, View.ld_unit_zero (S := S512x1) hz]
  exact congrArg₂ (k0_pay2 acc) e2 e1

/-- The accumulator after `n` trips: zero, then one `k0_pay2` per trip (past the last trip it stays). -/
def accAfter (x0 : Vec F S512x1 .f32) (x1 : Vec F S1x16384 .f32) : ℕ → FVec F S512x128 .f32
  | 0 => k0_pay1
  | n + 1 => if h : n < k0_t1_loop.trips then k0_pay2 (accAfter x0 x1 n) (chunk x1 ⟨n, h⟩) x0 else accAfter x0 x1 n

/-- The run's record of the accumulator before trip `n` is that recursion. -/
theorem st_eq (c : Dev nD) (i : grid0.Coords) (a1 : Memref sig .tc .vmem S512x1 .f32) (h1 : a1.IsWhole)
    (a2 : Memref sig .tc .vmem S1x16384 .f32) (h2 : a2.IsWhole) (a3 : Memref sig .tc .vmem S512x1 .f32) (h3 : a3.IsWhole)
    (x0 : Vec F S512x1 .f32) (x1 : Vec F S1x16384 .f32) :
    ∀ n : ℕ, n ≤ k0_t1_loop.trips →
      st_k0_t1 (F := F) Variants.none c none i a1 h1 a2 h2 a3 h3 (h1.unread x0) (h2.unread x1) k0_pay1 n = accAfter x0 x1 n
  | 0, _ => rfl
  | n + 1, hn => by
    have hlt : n < k0_t1_loop.trips := hn
    have hs := st_k0_t1_succ (F := F) Variants.none c none i a1 h1 a2 h2 a3 h3 (h1.unread x0) (h2.unread x1) k0_pay1 ⟨n, hlt⟩
    rw [show (⟨n, hlt⟩ : Fin k0_t1_loop.trips).val + 1 = n + 1 from rfl] at hs
    rw [hs, trip_eq, st_eq c i a1 h1 a2 h2 a3 h3 x0 x1 n (Nat.le_of_lt hlt)]
    show _ = (if h : n < k0_t1_loop.trips then k0_pay2 (accAfter x0 x1 n) (chunk x1 ⟨n, h⟩) x0 else accAfter x0 x1 n)
    rw [dif_pos hlt]

/-- What the body leaves in its output block: the lane sums of the accumulator after all trips. -/
theorem out_eq (c : Dev nD) (i : grid0.Coords) (a1 : Memref sig .tc .vmem S512x1 .f32) (h1 : a1.IsWhole)
    (a2 : Memref sig .tc .vmem S1x16384 .f32) (h2 : a2.IsWhole) (a3 : Memref sig .tc .vmem S512x1 .f32) (h3 : a3.IsWhole)
    (x0 : Vec F S512x1 .f32) (x1 : Vec F S1x16384 .f32) :
    out0_A_2 c i a1 h1 a2 h2 a3 h3 x0 x1 = k0_pay3 (accAfter x0 x1 k0_t1_loop.trips) := by
  unfold out0_A_2
  rw [View.read_writes_eq_canon _ _ _ (cover0_A_2 c i a1 h1 a2 h2 a3 h3 x0 x1)]
  unfold kernelRun0_A
  dsimp only
  rw [View.canon_unit_zero hz]
  exact congrArg k0_pay3 (st_eq c i a1 h1 a2 h2 a3 h3 x0 x1 k0_t1_loop.trips (Nat.le_refl _))

end Cert.KernelIdeal.Body

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibBlocks.lean ====
/-
  Three more ways a block of numbers is read at an index — general in the extents.

  An `a × n` matrix with `n = b·c`, recast as an `a × b × c` block (each row cut into `b` groups of `c`), reads at
  `(p, s, l)` the matrix's entry `(p, c·s + l)`; an `a × 1` column recast as a vector reads at `p` the column's entry
  `(p, 0)`; and the sum of an `a × b × c` block along its middle axis, over the
  extended reals, reads at `(p, q)` the sum over `k` of the entries `(p, k, q)`.
-/
import Idealize.ShloMosaic.Lib.Pipeline.Value
import Idealize.ShloMosaic.Lib.ValueIdx
import Idealize.ShloMosaic.PureOps.Ideal.Laws

noncomputable section

open scoped BigOperators

namespace Cert.LibBlocks

open Idealize.ShloMosaic Idealize.ShloMosaic.ValueIdx

variable {α : Type}

/-- A matrix whose rows of length `n = b·c` are cut into `b` groups of `c` reads, at `(p, s, l)`, its entry
    `(p, c·s + l)`. -/
theorem shapeCast_rows_split_apply {a b c n : ℕ} (hn : n = b * c) (x : (⟨2, ![a, n]⟩ : Shape).Idx → α)
    (h : (⟨2, ![a, n]⟩ : Shape).ShapeCasts ⟨3, ![a, b, c]⟩) (p : Fin a) (s : Fin b) (l : Fin c) (q : Fin n)
    (hq : q.val = c * s.val + l.val) :
    shapeCast ⟨3, ![a, b, c]⟩ x h (ix3 p s l) = x (ix2 p q) := by
  refine shapeCast_apply x h (ix3 p s l) (ix2 p q) ?_
  rw [Shape.rowMajor_val_two, Shape.rowMajor_val_three]
  show p.val * n + q.val = (p.val * b + s.val) * c + l.val
  rw [hq, hn]
  ring

/-- An `a × 1` column recast as a vector of `a` entries reads, at `p`, the column's entry `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) := by
  refine shapeCast_apply x h (ix1 p) (ix2 p (0 : Fin 1)) ?_
  rw [Shape.rowMajor_val_one, Shape.rowMajor_val_two]
  show p.val * 1 + 0 = p.val
  omega

/-- Over the extended reals the sum of an `a × b × c` block along its middle axis reads, at `(p, q)`,
    `∑ₖ src (p, k, q)`. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (q : Fin c) :
    multiReduction .add [1] ⟨2, ![a, c]⟩ src acc h hφ hacc (ix2 p q) = ∑ k : Fin b, src (ix3 p k q) := by
  refine (Ideal.multiReduction_add_single src acc h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

end Cert.LibBlocks

end
-- ==== Proof.BodyValue.lean ====
/-
  One grid step's output block over the extended reals: row `r` of the block is the number of columns `j` of the row
  operand within 0.1 of the column operand's entry `r`.

  In trip `k` the body compares the column operand's entry `r` with each of the chunk's 2048 entries, turns each
  answer into 0 or 1 (a one-bit word widened and converted: its value), cuts the 2048 answers of a row into 16 groups
  of 128 and adds the groups, so lane `l` of row `r` gains the 16 answers for the chunk's columns `128·s + l`. The
  chunk's column `q` is the operand's column `2048·k + q`. After the eight trips lane `l` of row `r` holds the answers
  for all columns `2048·k + 128·s + l`, and the final sum over the 128 lanes covers every column once: only the
  order of a finite sum changes.
-/
import proofs.«162489_j6545530159211_2_alg».proof.Proof.Trips
import proofs.«162489_j6545530159211_2_alg».proof.Proof.Spec
import proofs.«162489_j6545530159211_2_alg».proof.Proof.LibColumns
import proofs.«162489_j6545530159211_2_alg».proof.Proof.LibBlocks
import Idealize.ShloMosaic.Lib.ValueLayout
import Idealize.ShloMosaic.Lib.KernelVsHost

noncomputable section

open scoped BigOperators

namespace Cert.KernelIdeal.BodyValue

open Cert.KernelIdeal Cert.KernelIdeal.Gen Cert.KernelIdeal.Body Cert.Density Cert.LibColumns Cert.LibBlocks
open Idealize.ShloMosaic Idealize.ShloMosaic.ValueIdx

/-- The loop makes eight trips. -/
theorem trips_eq : k0_t1_loop.trips = 8 := by decide +kernel

/-- One trip's 512 × 2048 table of 0/1 answers: the column operand's entry of the row against the chunk's entry of
    the column. -/
def answers (v9 : Vec Ideal S1x2048 .f32) (v11 : Vec Ideal S512x1 .f32) : FVec Ideal S512x2048 .f32 :=
  sitofp .f32 (extui 32 (cmpf .ole (absf (subf
      (broadcastTo S512x2048 (shapeCast S512x1 v11 shapeCasts_S512x1_S512x1) broadcasts_S512x1_S512x2048)
      (broadcastTo S512x2048 (shapeCast S1x2048 v9 shapeCasts_S1x2048_S1x2048) broadcasts_S1x2048_S512x2048)))
    (broadcast S512x2048 (Scalar.ofBits (F := Ideal) .f32 0x3DCCCCCD#32))) natLt_1_32)

/-- A trip adds to the accumulator the group sums of its table of answers. -/
theorem pay2_eq (acc : FVec Ideal S512x128 .f32) (v9 : Vec Ideal S1x2048 .f32) (v11 : Vec Ideal S512x1 .f32) :
    k0_pay2 (F := Ideal) acc v9 v11
      = addf acc (multiReduction .add [1] S512x128
          (shapeCast S512x16x128 (answers v9 v11) shapeCasts_S512x2048_S512x16x128) 0x00000000#32
          reduces_S512x16x128_S512x128 (.inl rfl) rfl) := rfl

/-- The table at row `r`, column `q`. -/
theorem answers_apply (v9 : Vec Ideal S1x2048 .f32) (v11 : Vec Ideal S512x1 .f32) (r : Fin 512) (q : Fin 2048) :
    answers v9 v11 (ix2 r q) = nearR (v11 (ix2 r (0 : Fin 1))) (v9 (ix2 (0 : Fin 1) q)) := by
  have e13 : broadcastTo S512x2048 (shapeCast S512x1 v11 shapeCasts_S512x1_S512x1) broadcasts_S512x1_S512x2048 (ix2 r q)
      = v11 (ix2 r (0 : Fin 1)) := by
    rw [shapeCast_self]; exact broadcastTo_a1_ab_apply v11 _ r q
  have e14 : broadcastTo S512x2048 (shapeCast S1x2048 v9 shapeCasts_S1x2048_S1x2048) broadcasts_S1x2048_S512x2048 (ix2 r q)
      = v9 (ix2 (0 : Fin 1) q) := by
    rw [shapeCast_self]; exact broadcastTo_1b_ab_apply v9 _ r q
  show ((((FloatOps.cmpf (F := Ideal) (φ := .f32) .ole (FloatOps.absf (F := Ideal) (φ := .f32) (FloatOps.subf (F := Ideal) (φ := .f32)
      (broadcastTo S512x2048 (shapeCast S512x1 v11 shapeCasts_S512x1_S512x1) broadcasts_S512x1_S512x2048 (ix2 r q))
      (broadcastTo S512x2048 (shapeCast S1x2048 v9 shapeCasts_S1x2048_S1x2048) broadcasts_S1x2048_S512x2048 (ix2 r q))))
      (FloatOps.ofBits (F := Ideal) .f32 0x3DCCCCCD#32)).setWidth 32).toInt : ℝ) : EReal) = _
  rw [e13, e14, toInt_setWidth_bit]
  unfold nearR near
  norm_cast

/-- A trip's yield at row `r`, lane `l`: the carried value plus the 16 answers of the lane's columns. -/
theorem pay2_apply (acc : FVec Ideal S512x128 .f32) (v9 : Vec Ideal S1x2048 .f32) (v11 : Vec Ideal S512x1 .f32)
    (r : Fin 512) (l : Fin 128) :
    k0_pay2 (F := Ideal) acc v9 v11 (ix2 r l)
      = acc (ix2 r l) + ∑ s : Fin 16, nearR (v11 (ix2 r (0 : Fin 1)))
          (v9 (ix2 (0 : Fin 1) ⟨128 * s.val + l.val, by have := s.isLt; have := l.isLt; omega⟩)) := by
  rw [pay2_eq, addf_apply]
  congr 1
  refine (midSum_apply _ _ reduces_S512x16x128_S512x128 (.inl rfl) rfl r l).trans ?_
  refine Finset.sum_congr rfl fun s _ => ?_
  rw [shapeCast_rows_split_apply (by norm_num) (answers v9 v11) shapeCasts_S512x2048_S512x16x128 r s l
    ⟨128 * s.val + l.val, by have := s.isLt; have := l.isLt; omega⟩ rfl]
  exact answers_apply v9 v11 r _

/-- The zero accumulator. -/
theorem pay1_apply (j : S512x128.Idx) : k0_pay1 (F := Ideal) j = 0 := by
  show Ideal.ofBits .f32 0x00000000#32 = 0
  exact Ideal.ofBits_zero_f32

/-- The stored block at row `r`: the sum of the accumulator's lanes. -/
theorem pay3_apply (v2 : FVec Ideal S512x128 .f32) (r : Fin 512) :
    k0_pay3 (F := Ideal) v2 (ix2 r (0 : Fin 1)) = ∑ l : Fin 128, v2 (ix2 r l) := by
  unfold k0_pay3
  dsimp only
  rw [shapeCast_a_a1_apply _ shapeCasts_S512_S512x1 r 0]
  exact rowSum_apply v2 _ reduces_S512x128_S512 (.inl rfl) rfl r

/-- The row operand's column `j`, for any natural `j` (zero past the last column, which is never asked for). -/
def col (x1 : Vec Ideal S1x16384 .f32) (j : ℕ) : EReal :=
  if h : j < 16384 then x1 (ix2 (0 : Fin 1) (⟨j, h⟩ : Fin 16384)) else 0

/-- Trip `k`'s chunk at column `q` is the operand's column `2048·k + q`. -/
theorem chunk_apply (x1 : Vec Ideal S1x16384 .f32) (k : Fin k0_t1_loop.trips) (q : Fin 2048) :
    chunk x1 k (ix2 (0 : Fin 1) q) = col x1 (2048 * k.val + q.val) := by
  have hk : k.val < 8 := lt_of_lt_of_eq k.isLt trips_eq
  have hq := q.isLt
  have hlt : 2048 * k.val + q.val < 16384 := by omega
  unfold col
  rw [dif_pos hlt]
  unfold chunk
  refine congrArg x1 (funext fun a => Fin.ext ?_)
  have ho := k0_off1_eq k
  match a with
  | ⟨0, _⟩ =>
    show (k0_off1 k) 0 + 1 * 0 = 0
    rw [ho]; rfl
  | ⟨1, _⟩ =>
    show (k0_off1 k) 1 + 1 * q.val = 2048 * k.val + q.val
    rw [ho]; show 2048 * k.val + 1 * q.val = _; omega

/-- After `n` trips, row `r`, lane `l` of the accumulator holds the answers for the columns `2048·k + 128·s + l`,
    `k < n`. -/
theorem acc_apply (x0 : Vec Ideal S512x1 .f32) (x1 : Vec Ideal S1x16384 .f32) (r : Fin 512) (l : Fin 128) :
    ∀ n : ℕ, n ≤ 8 → accAfter x0 x1 n (ix2 r l)
      = ∑ k ∈ Finset.range n, ∑ s : Fin 16, nearR (x0 (ix2 r (0 : Fin 1))) (col x1 (2048 * k + (128 * s.val + l.val)))
  | 0, _ => by
    show k0_pay1 (F := Ideal) (ix2 r l) = _
    rw [pay1_apply, Finset.sum_range_zero]
  | n + 1, hn => by
    have hlt : n < k0_t1_loop.trips := by rw [trips_eq]; omega
    show (if h : n < k0_t1_loop.trips then k0_pay2 (accAfter x0 x1 n) (chunk x1 ⟨n, h⟩) x0 else accAfter x0 x1 n) (ix2 r l) = _
    rw [dif_pos hlt, pay2_apply, acc_apply x0 x1 r l n (by omega), Finset.sum_range_succ]
    congr 1
    refine Finset.sum_congr rfl fun s _ => ?_
    rw [chunk_apply]

/-- The output block at row `r`: how many of the row operand's 16384 columns are within 0.1 of the column operand's
    entry `r`. -/
theorem out_apply (c : Dev nD) (i : grid0.Coords) (a1 : Memref sig .tc .vmem S512x1 .f32) (h1 : a1.IsWhole)
    (a2 : Memref sig .tc .vmem S1x16384 .f32) (h2 : a2.IsWhole) (a3 : Memref sig .tc .vmem S512x1 .f32) (h3 : a3.IsWhole)
    (x0 : Vec Ideal S512x1 .f32) (x1 : Vec Ideal S1x16384 .f32) (r : Fin 512) :
    out0_A_2 c i a1 h1 a2 h2 a3 h3 x0 x1 (ix2 r (0 : Fin 1))
      = ∑ j : Fin 16384, nearR (x0 (ix2 r (0 : Fin 1))) (x1 (ix2 (0 : Fin 1) j)) := by
  rw [out_eq, pay3_apply, trips_eq]
  have e : ∀ l : Fin 128, accAfter x0 x1 8 (ix2 r l)
      = ∑ k ∈ Finset.range 8, ∑ s : Fin 16, nearR (x0 (ix2 r (0 : Fin 1))) (col x1 (2048 * k + (128 * s.val + l.val))) :=
    fun l => acc_apply x0 x1 r l 8 (Nat.le_refl _)
  rw [Finset.sum_congr rfl fun l _ => e l]
  rw [sum_columns fun j => nearR (x0 (ix2 r (0 : Fin 1))) (col x1 j)]
  refine Finset.sum_congr rfl fun j _ => ?_
  unfold col
  rw [dif_pos j.isLt]

end Cert.KernelIdeal.BodyValue

end
-- ==== Proof.Whole.lean ====
/-
  The kernel's whole program over the extended reals: its result is `tail (count g) x t` with `g = gvec x t`.

  Before the grid the program forms `g` and hands the grid two arrangements of it: a 16384 × 1 column, of which grid
  step `t` reads rows `512·t … 512·t + 511`, and a 1 × 16384 row, which every step reads whole. Step `t` writes rows
  `512·t …` of a 16384 × 1 result, and row `r` of what it writes is the number of columns of the row operand within
  0.1 of the column operand's entry `r` — the count of sample `512·t + r`. The 32 blocks tile the result, so after the
  grid the result holds every sample's count. What follows the grid is the specification's `tail`, operation for
  operation, applied to that array recast as a vector.
-/
import proofs.«162489_j6545530159211_2_alg».proof.Proof.BodyValue
import Idealize.ShloMosaic.Lib.Pipeline.Value
import Idealize.ShloMosaic.Lib.StableHlo.Run
import Idealize.ShloMosaic.Lib.ValueLayout
import Idealize.ShloMosaic.Lib.Tactic

noncomputable section

open scoped BigOperators

namespace Cert.KernelIdeal.Whole

open Cert.KernelIdeal Cert.KernelIdeal.Gen Cert.KernelIdeal.Body Cert.KernelIdeal.BodyValue Cert.Density Cert.LibColumns
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- `g` of the arrays the program is launched with. -/
def gArr (c : Dev nD) : (⟨Sv, .f32⟩ : BufTy).Contents (Elt Ideal) :=
  gvec (F := Ideal) bcast_S_S16384 (m ((c : Thread nD τ).loc main_arg0)) (m ((c : Thread nD τ).loc main_arg1))

/-- The grid's column operand is `g` as a 16384 × 1 column. -/
theorem V_v8 (c : Dev nD) :
    (V m c main_v8 : S16384x1.Idx → EReal) = shapeCast S16384x1 (gArr m c) shapeCasts_S16384_S16384x1 := by
  show StableHlo.after hostOps0 (fun b => m (c, b)) (Proc.devRef .tc main_v8) = _
  after_results
  rfl

/-- The grid's row operand is `g` as a 1 × 16384 row. -/
theorem V_v9 (c : Dev nD) :
    (V m c main_v9 : S1x16384.Idx → EReal) = shapeCast S1x16384 (gArr m c) shapeCasts_S16384_S1x16384 := by
  show StableHlo.after hostOps0 (fun b => m (c, b)) (Proc.devRef .tc main_v9) = _
  after_results
  rfl

/-- Where each window's block sits at grid step `t`: the column operand's and the result's at block row `t`, the row
    operand's at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Sample `512·t + r`, for a grid step `t` and a row `r` of its block. -/
def sample (t : Fin cfg0.N) (r : Fin 512) : Fin 16384 :=
  ⟨512 * t.val + r.val, by have ht : t.val < grid0.N := t.isLt; have hN : grid0.N = 32 := N_0; have := r.isLt; omega⟩

/-- Step `t`'s block of the column operand, at row `r`, is `g` at sample `512·t + r`. -/
theorem blk0_apply (c : Dev nD) (t : Fin cfg0.N) (r : Fin 512) :
    iblk m c 0 t (ix2 r (0 : Fin 1)) = gArr m c (ix1 (sample t r)) := by
  obtain ⟨e0, e1, -, -, -, -⟩ := idx_facts t
  have e : ((cfg0.win 0).blk t).view.emb (ix2 r (0 : Fin 1)) = ix2 (sample t r) (0 : Fin 1) := by
    funext a; apply Fin.ext
    match a with
    | ⟨0, _⟩ => show win0_0.index t (0 : Fin 2) * 512 + 1 * r.val = 512 * t.val + r.val; rw [e0]; omega
    | ⟨1, _⟩ => show win0_0.index t (1 : Fin 2) * 1 + 1 * 0 = 0; rw [e1]
  show V m c main_v8 (((cfg0.win 0).blk t).view.emb (ix2 r (0 : Fin 1))) = _
  rw [e, V_v8]
  exact shapeCast_a_a1_apply (gArr m c) shapeCasts_S16384_S16384x1 (sample t r) 0

/-- Every step's block of the row operand, at column `j`, is `g` at sample `j`. -/
theorem blk1_apply (c : Dev nD) (t : Fin cfg0.N) (j : Fin 16384) :
    iblk m c 1 t (ix2 (0 : Fin 1) j) = gArr m c (ix1 j) := by
  obtain ⟨-, -, e0, e1, -, -⟩ := idx_facts t
  have e : ((cfg0.win 1).blk t).view.emb (ix2 (0 : Fin 1) j) = ix2 (0 : Fin 1) j := by
    funext a; apply Fin.ext
    match a with
    | ⟨0, _⟩ => show win0_1.index t (0 : Fin 2) * 1 + 1 * 0 = 0; rw [e0]
    | ⟨1, _⟩ => show win0_1.index t (1 : Fin 2) * 16384 + 1 * j.val = j.val; rw [e1]; omega
  show V m c main_v9 (((cfg0.win 1).blk t).view.emb (ix2 (0 : Fin 1) j)) = _
  rw [e, V_v9]
  exact shapeCast_a_1a_apply (gArr m c) shapeCasts_S16384_S1x16384 0 j

/-- The counts, laid out as the grid's 16384 × 1 result. -/
def counts (c : Dev nD) : S16384x1.Idx → EReal :=
  fun i => count (gArr m c) (ix1 (⟨(i 0).val, idx2_lt0 i⟩ : Fin 16384))

/-- What grid step `t` leaves in its output block: row `r` holds the count of sample `512·t + r`. -/
theorem outsAt_eq (c : Dev nD) (t : Fin cfg0.N) :
    outsAt0 m c t = fun y : S512x1.Idx => counts m c (ix2 (sample t ⟨(y 0).val, idx2_lt0 y⟩) (0 : Fin 1)) := by
  unfold outsAt0
  funext y
  obtain ⟨r, z, rfl⟩ : ∃ (r : Fin 512) (z : Fin 1), y = ix2 r z := ⟨y 0, y 1, eq_ix2 y⟩
  obtain rfl : z = 0 := Subsingleton.elim _ _
  refine (out_apply c (grid0.coords t) (ms0_0 t) (hs0_0 t) (ms0_1 t) (hs0_1 t) (ms0_2 t) (hs0_2 t) (iblk m c 0 t) (iblk m c 1 t) r).trans ?_
  rw [blk0_apply]
  show _ = ∑ j : Fin 16384, nearR (gArr m c (ix1 (sample t r))) (gArr m c (ix1 j))
  refine Finset.sum_congr rfl fun j _ => ?_
  rw [blk1_apply]

/-- What grid step `t` writes back is its block of the counts. -/
theorem flushed_eq (c : Dev nD) (t : Fin cfg0.N) :
    (dats m 0 c).flushed 2 t = ((cfg0.win 2).blk t).view.read (Elt Ideal) (counts m c) := by
  show (cfg0.win 2).cut (grid0.coords t) ((dats m 0 c).after 2 t) = _
  rw [after0_2, outsAt_eq]
  obtain ⟨-, -, -, -, e0, e1⟩ := idx_facts t
  generalize counts m c = G
  funext j
  refine congrArg G ?_
  funext a; apply Fin.ext
  match a with
  | ⟨0, _⟩ =>
    show 512 * t.val + (j 0).val = win0_2.index t (0 : Fin 2) * 512 + 1 * (j 0).val
    rw [e0]; omega
  | ⟨1, _⟩ =>
    show 0 = win0_2.index t (1 : Fin 2) * 1 + 1 * (j 1).val
    have hj : (j 1).val < 1 := (j 1).isLt
    rw [e1]; omega

/-- An index of the result is in step `t`'s block iff each coordinate is in the block's range. -/
theorem mem_blk (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v10).slice (win0_2.rect t)).set ↔ _
  rw [View.set_slice_whole, Rect.mem_set_unit]
  exact Iff.rfl

/-- Every row of the result is in the block of the step that owns it: row `i` in step `i / 512`'s. -/
theorem cover (i : S16384x1.Idx) : ∃ t : Fin cfg0.N, (cfg0.win 2).flush t = true ∧ i ∈ ((cfg0.win 2).blk t).view.set := by
  have h0 : (i 0).val < 16384 := idx2_lt0 i
  have h1 : (i 1).val < 1 := idx2_lt1 i
  have hN : grid0.N = 32 := N_0
  let t : Fin cfg0.N := ⟨(i 0).val / 512, by show (i 0).val / 512 < grid0.N; omega⟩
  obtain ⟨-, -, -, -, e0, e1⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e0]; show (i 0).val / 512 * 512 ≤ (i 0).val ∧ (i 0).val < (i 0).val / 512 * 512 + 512; omega
  | ⟨1, _⟩ =>
    show win0_2.index t (1 : Fin 2) * 1 ≤ (i 1).val ∧ (i 1).val < win0_2.index t (1 : Fin 2) * 1 + 1
    rw [e1]; omega

/-- After the grid the result holds the counts. -/
theorem final (c : Dev nD) : (dats m 0 c).arrAt 2 cfg0.N = counts m c :=
  (dats m 0 c).arrAt_eq_of_cover 2 (counts m c) (fun t _ => flushed_eq m c t) (cover)

/-- The counts, recast from the 16384 × 1 result to a vector, are the specification's counts. -/
theorem counts_vec (c : Dev nD) :
    (fun i => shapeCast S16384 (counts m c) shapeCasts_S16384x1_S16384 i) = count (gArr m c) := by
  funext i
  obtain ⟨p, rfl⟩ : ∃ p : Fin 16384, i = ix1 p := ⟨i 0, eq_ix1 i⟩
  exact (Cert.LibBlocks.shapeCast_a1_a_apply (counts m c) shapeCasts_S16384x1_S16384 p).trans (by unfold counts; rfl)

set_option maxHeartbeats 2000000 in
/-- What the program returns: the operations after the grid are the specification's `tail`, applied to the counts and
    to the two argument arrays, which nothing has written. -/
theorem tail_eq (c : Dev nD) :
    (Pipeline.afterTail₀ cfgs (dats m) 0 (V0 m) [hostOps1] c main_v29 : S_.Idx → EReal)
      = tail (F := Ideal) bcast_S_S16384 reducesTo_S16384_S_d0 h_S_ (count (gArr m c))
          (m ((c : Thread nD τ).loc main_arg0)) (m ((c : Thread nD τ).loc main_arg1)) := by
  have hA : Pipeline.withArrays (cfgs 0).spec c (V0 m c) (fun w => (dats m 0 c).arrAt w (cfgs 0).N) (Proc.tc.devRef main_v10)
      = counts m c :=
    (Pipeline.withArrays_arr spec0 launch0.win.arr_inj c _ _ 2).trans (final m c)
  have h0 : Pipeline.withArrays (cfgs 0).spec c (V0 m c) (fun w => (dats m 0 c).arrAt w (cfgs 0).N) (Proc.tc.devRef main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h1 : Pipeline.withArrays (cfgs 0).spec c (V0 m c) (fun w => (dats m 0 c).arrAt w (cfgs 0).N) (Proc.tc.devRef main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v29) = _
  after_results_simp
  rw [hA, h0, h1]
  exact congrArg (fun cnt => tail (F := Ideal) bcast_S_S16384 reducesTo_S16384_S_d0 h_S_ cnt
    (m ((c : Thread nD τ).loc main_arg0)) (m ((c : Thread nD τ).loc main_arg1))) (counts_vec m c)

/-- The program's run, read: its result at `tail (count g) x t`, its arguments unchanged. -/
theorem run : θ_run defs (onTc (τ := τ) (main (F := Ideal))) ⟨m, fun _ => 0, ρ⟩ fun r => ∀ c : Dev nD,
      r.2.mem ((c : Thread nD τ).loc main_v29)
        = tail (F := Ideal) bcast_S_S16384 reducesTo_S16384_S_d0 h_S_ (count (gArr m c))
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v29 (Pipeline.mem_restRefs_of main_v29 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.lean ====
/-
  The kernel and its reference compute the same number over the extended reals.

  Both form `g i = |1 / (1 + exp (-x i)) - t i|` for the 16384 samples, count for each sample `i` the samples `j` with
  `|g i - g j| ≤ 0.1`, and return the mean of `16384 / (count i / 0.1 + ε) · loss i`. They differ only in how the count
  is added up. The reference widens each one-bit answer to an integer, adds a row's 16384 integers and converts the
  sum to a float; the number of ones is at most 16384, so the signed integer does not wrap, and it reads back as the sum
  of the answers' values. The kernel converts each answer to 0.0 or 1.0 first and adds floats: per grid step of 512
  samples, per chunk of 2048 columns, per group of 128 columns into 128 lanes, then across the lanes. Over the extended
  reals a finite sum does not depend on its order or grouping, so both are `count`; no step uses that the inputs are
  finite. The operations before the count and after it are the same on both sides, literal for literal, and are carried
  as the two functions `gvec` and `tail` without being opened.

  The idealized kernel is the kernel's own text read over the extended reals (nothing was rewritten), so what relates
  the two holds trivially; the three programs run to completion without a fault and leave their arguments as they were.
-/
import proofs.«162489_j6545530159211_2_alg».proof.Defs
import proofs.«162489_j6545530159211_2_alg».proof.Proof.Gen.Kernel
import proofs.«162489_j6545530159211_2_alg».proof.Proof.Gen.Kernel.Skeleton
import proofs.«162489_j6545530159211_2_alg».proof.Proof.Gen.Kernel.Loops
import proofs.«162489_j6545530159211_2_alg».proof.Proof.Gen.Kernel.Launch
import proofs.«162489_j6545530159211_2_alg».proof.Proof.Gen.Kernel.Points
import proofs.«162489_j6545530159211_2_alg».proof.Proof.Gen.Kernel.Frame
import proofs.«162489_j6545530159211_2_alg».proof.Proof.Gen.KernelIdeal
import proofs.«162489_j6545530159211_2_alg».proof.Proof.Gen.KernelIdeal.Skeleton
import proofs.«162489_j6545530159211_2_alg».proof.Proof.Gen.KernelIdeal.Loops
import proofs.«162489_j6545530159211_2_alg».proof.Proof.Gen.KernelIdeal.Launch
import proofs.«162489_j6545530159211_2_alg».proof.Proof.Gen.KernelIdeal.Points
import proofs.«162489_j6545530159211_2_alg».proof.Proof.Gen.KernelIdeal.Frame
import proofs.«162489_j6545530159211_2_alg».proof.Proof.Gen.ReferenceIdeal
import proofs.«162489_j6545530159211_2_alg».proof.Proof.Gen.ReferenceIdeal.Run
import proofs.«162489_j6545530159211_2_alg».proof.Proof.Gen.ReferenceIdeal.Read
import proofs.«162489_j6545530159211_2_alg».proof.Proof.Gen.Pre_finite_inputs
import proofs.«162489_j6545530159211_2_alg».proof.Proof.RefValue
import proofs.«162489_j6545530159211_2_alg».proof.Proof.Whole
import Idealize.ShloMosaic.Adequacy
import Idealize.ShloMosaic.Init

noncomputable section

namespace Cert.Proof

open Idealize.ShloMosaic Idealize.ShloMosaic.TcCoe Idealize.SL.Sem Cert.Density

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result and the reference's are the same
    `tail (count g) x t`. -/
theorem algebraic : Cert.algebraic_KernelIdeal_ReferenceIdeal := by
  intro m ρ m' ρ' _ hagree
  refine ⟨fun c => tail (F := Ideal) Cert.KernelIdeal.Gen.bcast_S_S16384 Cert.KernelIdeal.Gen.reducesTo_S16384_S_d0
      Cert.KernelIdeal.Gen.h_S_ (count (Cert.KernelIdeal.Whole.gArr m c))
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.v36_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
